-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1x28x28 : Shape := ⟨4, ![65536, 1, 28, 28]⟩
abbrev S2x4 : Shape := ⟨2, ![2, 4]⟩
abbrev S_ : Shape := ⟨0, ![]⟩

class Facts : Prop where
  bcast_S_S65536x1x28x28 : S_.BroadcastsInDim S65536x1x28x28 (![] : Fin 0 → Fin S65536x1x28x28.rank)
  reducesTo_S65536x1x28x28_S_d0_1_2_3 : S65536x1x28x28.ReducesTo [0, 1, 2, 3] S_
  h_S_ : 0 < S_.numel
  bcast_S_S2x4 : S_.BroadcastsInDim S2x4 (![] : Fin 0 → Fin S2x4.rank)
  reducesTo_S2x4_S_d0_1 : S2x4.ReducesTo [0, 1] S_

variable [Facts]

def fn {F : FTy → Type} [FloatOps F] (main_arg0 : FVec F S65536x1x28x28 .f32) (main_arg1 : FVec F S2x4 .f32) : IVec S_ 1 :=
  let main_v0 : FVec F S65536x1x28x28 .f32 := Host.absf main_arg0
  let main_cst : FVec F S_ .f32 := constant S_ .f32 0x7F800000#32
  let main_v1 : FVec F S65536x1x28x28 .f32 := broadcastInDim S65536x1x28x28 ![] bcast_S_S65536x1x28x28 main_cst
  let main_v2 : IVec S65536x1x28x28 1 := cmpf .olt main_v0 main_v1
  let main_c : IVec S_ 1 := constantI S_ 1 1#1
  let main_v3 : IVec S_ 1 := (fun x v => Host.reduce IntOp.andi x v reducesTo_S65536x1x28x28_S_d0_1_2_3 h_S_) main_v2 main_c
  let main_v4 : FVec F S2x4 .f32 := Host.absf main_arg1
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  main_v8
-- ==== Kernel.lean ====
abbrev S65536x1x28x28 : Shape := ⟨4, ![65536, 1, 28, 28]⟩
abbrev S2x4 : Shape := ⟨2, ![2, 4]⟩
abbrev S65536x14x2x14x2 : Shape := ⟨5, ![65536, 14, 2, 14, 2]⟩
abbrev S65536x14x14x2x2 : Shape := ⟨5, ![65536, 14, 14, 2, 2]⟩
abbrev S65536x784 : Shape := ⟨2, ![65536, 784]⟩
abbrev S1x4 : Shape := ⟨2, ![1, 4]⟩
abbrev S4 : Shape := ⟨1, ![4]⟩
abbrev S196x4 : Shape := ⟨2, ![196, 4]⟩
abbrev S784 : Shape := ⟨1, ![784]⟩
abbrev S1x784 : Shape := ⟨2, ![1, 784]⟩
abbrev S1024x784 : Shape := ⟨2, ![1024, 784]⟩
abbrev S1024x196x4 : Shape := ⟨3, ![1024, 196, 4]⟩
abbrev S1024x196x1 : Shape := ⟨3, ![1024, 196, 1]⟩
abbrev S1024x196 : Shape := ⟨2, ![1024, 196]⟩

abbrev nBuf : Space → Nat
  | .hbm => 25
  | .vmem => 7
  | .smem => 0
  | _ => 0

abbrev bufTy : (tb : Table) → Fin (tcTables nBuf tb) → BufTy
  | .hbm, ⟨0, _⟩ => ⟨S65536x1x28x28, .f32⟩
  | .hbm, ⟨1, _⟩ => ⟨S2x4, .f32⟩
  | .hbm, ⟨2, _⟩ => ⟨S65536x14x2x14x2, .f32⟩
  | .hbm, ⟨3, _⟩ => ⟨S65536x14x14x2x2, .f32⟩
  | .hbm, ⟨4, _⟩ => ⟨S65536x784, .f32⟩
  | .hbm, ⟨5, _⟩ => ⟨S1x4, .f32⟩
  | .hbm, ⟨6, _⟩ => ⟨S4, .f32⟩
  | .hbm, ⟨7, _⟩ => ⟨S1x4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S1x4, .f32⟩
  | .hbm, ⟨13, _⟩ => ⟨S196x4, .f32⟩
  | .hbm, ⟨14, _⟩ => ⟨S784, .f32⟩
  | .hbm, ⟨15, _⟩ => ⟨S1x784, .f32⟩
  | .hbm, ⟨16, _⟩ => ⟨S1x4, .f32⟩
  | .hbm, ⟨17, _⟩ => ⟨S196x4, .f32⟩
  | .hbm, ⟨18, _⟩ => ⟨S784, .f32⟩
  | .hbm, ⟨19, _⟩ => ⟨S1x784, .f32⟩
  | .hbm, ⟨20, _⟩ => ⟨S1x4, .f32⟩
  | .hbm, ⟨21, _⟩ => ⟨S196x4, .f32⟩
  | .hbm, ⟨22, _⟩ => ⟨S784, .f32⟩
  | .hbm, ⟨23, _⟩ => ⟨S1x784, .f32⟩
  | .hbm, ⟨24, _⟩ => ⟨S65536x784, .f32⟩
  | .local _ .vmem, ⟨0, _⟩ => ⟨S1024x784, .f32⟩
  | .local _ .vmem, ⟨1, _⟩ => ⟨S1024x784, .f32⟩
  | .local _ .vmem, ⟨2, _⟩ => ⟨S1x784, .f32⟩
  | .local _ .vmem, ⟨3, _⟩ => ⟨S1x784, .f32⟩
  | .local _ .vmem, ⟨4, _⟩ => ⟨S1x784, .f32⟩
  | .local _ .vmem, ⟨5, _⟩ => ⟨S1024x784, .f32⟩
  | .local _ .vmem, ⟨6, _⟩ => ⟨S1024x784, .f32⟩
  | _, _ => ⟨S65536x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S65536x1x28x28_S65536x14x2x14x2 : S65536x1x28x28.ShapeCasts S65536x14x2x14x2
  transposes_S65536x14x2x14x2_S65536x14x14x2x2_0_1_3_2_4 : S65536x14x2x14x2.Transposes [0, 1, 3, 2, 4] S65536x14x14x2x2
  shapeCasts_S65536x14x14x2x2_S65536x784 : S65536x14x14x2x2.ShapeCasts S65536x784
  slices_S2x4_S1x4_0_0 : S2x4.Slices ![0, 0] S1x4
  shapeCasts_S1x4_S4 : S1x4.ShapeCasts S4
  slices_S2x4_S1x4_1_0 : S2x4.Slices ![1, 0] S1x4
  shapeCasts_S4_S1x4 : S4.ShapeCasts S1x4
  bcast_S1x4_S196x4_0_1 : S1x4.BroadcastsInDim S196x4 (![0, 1] : Fin 2 → Fin S196x4.rank)
  shapeCasts_S196x4_S784 : S196x4.ShapeCasts S784
  shapeCasts_S784_S1x784 : S784.ShapeCasts S1x784
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S1024x784 : S1x784.Broadcasts S1024x784
  shapeCasts_S1024x784_S1024x196x4 : S1024x784.ShapeCasts S1024x196x4
  slices_S1024x196x4_o0_0_0_S1024x196x1 : S1024x196x4.Slices ![0, 0, 0] S1024x196x1
  shapeCasts_S1024x196x1_S1024x196 : S1024x196x1.ShapeCasts S1024x196
  slices_S1024x196x4_o0_0_1_S1024x196x1 : S1024x196x4.Slices ![0, 0, 1] S1024x196x1
  slices_S1024x196x4_o0_0_2_S1024x196x1 : S1024x196x4.Slices ![0, 0, 2] S1024x196x1
  slices_S1024x196x4_o0_0_3_S1024x196x1 : S1024x196x4.Slices ![0, 0, 3] S1024x196x1
  shapeCasts_S1024x196_S1024x196x1 : S1024x196.ShapeCasts S1024x196x1
  concatenates_S1024x196x1_S1024x196x1_S1024x196x1_S1024x196x1_S1024x196x4_d2 : Shape.Concatenates [S1024x196x1, S1024x196x1, S1024x196x1, S1024x196x1] S1024x196x4 2
  shapeCasts_S1024x196x4_S1024x784 : S1024x196x4.ShapeCasts S1024x784
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x784.size a ≤ S1x784.size a
  hwx0_1 : ∀ i : grid0.Coords, EltTy.bits .f32 = 32 ∨ (Rect.block (s := S1x784) S1x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x784.size a ≤ S1x784.size a
  hwx0_2 : ∀ i : grid0.Coords, EltTy.bits .f32 = 32 ∨ (Rect.block (s := S1x784) S1x784.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x784.size a ≤ S1x784.size a
  hwx0_3 : ∀ i : grid0.Coords, EltTy.bits .f32 = 32 ∨ (Rect.block (s := S1x784) S1x784.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x784.size a ≤ S65536x784.size a
  hwx0_4 : ∀ i : grid0.Coords, EltTy.bits .f32 = 32 ∨ (Rect.block (s := S65536x784) S1024x784.size (cc0_transform_4 i) (hinb0_4 i)).WholeWords (EltTy.packing .f32)

variable [Facts₀]

abbrev win0_0 : Pipeline.Window sig grid0 :=
  Pipeline.Window.ofSpec (Memref.whole main_v2) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x784.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x784.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1024x784.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1x28x28 : Shape := ⟨4, ![65536, 1, 28, 28]⟩
abbrev S2x4 : Shape := ⟨2, ![2, 4]⟩
abbrev S65536x14x2x14x2 : Shape := ⟨5, ![65536, 14, 2, 14, 2]⟩
abbrev S65536x14x14x2x2 : Shape := ⟨5, ![65536, 14, 14, 2, 2]⟩
abbrev S65536x196x4 : Shape := ⟨3, ![65536, 196, 4]⟩
abbrev S1x4 : Shape := ⟨2, ![1, 4]⟩
abbrev S4 : Shape := ⟨1, ![4]⟩
abbrev S1x1x4 : Shape := ⟨3, ![1, 1, 4]⟩
abbrev S65536x196x1 : Shape := ⟨3, ![65536, 196, 1]⟩
abbrev S65536x196 : Shape := ⟨2, ![65536, 196]⟩
abbrev S65536x784 : Shape := ⟨2, ![65536, 784]⟩

abbrev nBuf : Space → Nat
  | .hbm => 40
  | .vmem => 0
  | .smem => 0
  | _ => 0

abbrev bufTy : (tb : Table) → Fin (tcTables nBuf tb) → BufTy
  | .hbm, ⟨0, _⟩ => ⟨S65536x1x28x28, .f32⟩
  | .hbm, ⟨1, _⟩ => ⟨S2x4, .f32⟩
  | .hbm, ⟨2, _⟩ => ⟨S65536x14x2x14x2, .f32⟩
  | .hbm, ⟨3, _⟩ => ⟨S65536x14x14x2x2, .f32⟩
  | .hbm, ⟨4, _⟩ => ⟨S65536x196x4, .f32⟩
  | .hbm, ⟨5, _⟩ => ⟨S1x4, .f32⟩
  | .hbm, ⟨6, _⟩ => ⟨S4, .f32⟩
  | .hbm, ⟨7, _⟩ => ⟨S1x4, .f32⟩
  | .hbm, ⟨8, _⟩ => ⟨S4, .f32⟩
  | .hbm, ⟨9, _⟩ => ⟨S4, .f32⟩
  | .hbm, ⟨10, _⟩ => ⟨S65536x196x4, .f32⟩
  | .hbm, ⟨11, _⟩ => ⟨S1x1x4, .f32⟩
  | .hbm, ⟨12, _⟩ => ⟨S65536x196x4, .f32⟩
  | .hbm, ⟨13, _⟩ => ⟨S65536x196x4, .f32⟩
  | .hbm, ⟨14, _⟩ => ⟨S4, .f32⟩
  | .hbm, ⟨15, _⟩ => ⟨S65536x196x4, .f32⟩
  | .hbm, ⟨16, _⟩ => ⟨S1x1x4, .f32⟩
  | .hbm, ⟨17, _⟩ => ⟨S65536x196x4, .f32⟩
  | .hbm, ⟨18, _⟩ => ⟨S65536x196x4, .f32⟩
  | .hbm, ⟨19, _⟩ => ⟨S4, .f32⟩
  | .hbm, ⟨20, _⟩ => ⟨S1x1x4, .f32⟩
  | .hbm, ⟨21, _⟩ => ⟨S65536x196x4, .f32⟩
  | .hbm, ⟨22, _⟩ => ⟨S65536x196x4, .f32⟩
  | .hbm, ⟨23, _⟩ => ⟨S65536x196x4, .f32⟩
  | .hbm, ⟨24, _⟩ => ⟨S65536x196x1, .f32⟩
  | .hbm, ⟨25, _⟩ => ⟨S65536x196, .f32⟩
  | .hbm, ⟨26, _⟩ => ⟨S65536x196x1, .f32⟩
  | .hbm, ⟨27, _⟩ => ⟨S65536x196, .f32⟩
  | .hbm, ⟨28, _⟩ => ⟨S65536x196x1, .f32⟩
  | .hbm, ⟨29, _⟩ => ⟨S65536x196, .f32⟩
  | .hbm, ⟨30, _⟩ => ⟨S65536x196x1, .f32⟩
  | .hbm, ⟨31, _⟩ => ⟨S65536x196, .f32⟩
  | .hbm, ⟨32, _⟩ => ⟨S65536x196, .f32⟩
  | .hbm, ⟨33, _⟩ => ⟨S65536x196, .f32⟩
  | .hbm, ⟨34, _⟩ => ⟨S65536x196x1, .f32⟩
  | .hbm, ⟨35, _⟩ => ⟨S65536x196x1, .f32⟩
  | .hbm, ⟨36, _⟩ => ⟨S65536x196x1, .f32⟩
  | .hbm, ⟨37, _⟩ => ⟨S65536x196x1, .f32⟩
  | .hbm, ⟨38, _⟩ => ⟨S65536x196x4, .f32⟩
  | .hbm, ⟨39, _⟩ => ⟨S65536x784, .f32⟩
  | _, _ => ⟨S65536x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩

abbrev nD : Nat := 1
abbrev τ : Topo := Topo.v7x

variable {F : FTy → Type} [FloatOps F]

class Facts₀ : Prop where
  shapeCasts_S65536x1x28x28_S65536x14x2x14x2 : S65536x1x28x28.ShapeCasts S65536x14x2x14x2
  transposes_S65536x14x2x14x2_S65536x14x14x2x2_0_1_3_2_4 : S65536x14x2x14x2.Transposes [0, 1, 3, 2, 4] S65536x14x14x2x2
  shapeCasts_S65536x14x14x2x2_S65536x196x4 : S65536x14x14x2x2.ShapeCasts S65536x196x4
  slices_S2x4_S1x4_0_0 : S2x4.Slices ![0, 0] S1x4
  shapeCasts_S1x4_S4 : S1x4.ShapeCasts S4
  slices_S2x4_S1x4_1_0 : S2x4.Slices ![1, 0] S1x4
  bcast_S4_S1x1x4_2 : S4.BroadcastsInDim S1x1x4 (![2] : Fin 1 → Fin S1x1x4.rank)
  bcast_S1x1x4_S65536x196x4_0_1_2 : S1x1x4.BroadcastsInDim S65536x196x4 (![0, 1, 2] : Fin 3 → Fin S65536x196x4.rank)
  slices_S65536x196x4_S65536x196x1_0_0_0 : S65536x196x4.Slices ![0, 0, 0] S65536x196x1
  shapeCasts_S65536x196x1_S65536x196 : S65536x196x1.ShapeCasts S65536x196
  slices_S65536x196x4_S65536x196x1_0_0_1 : S65536x196x4.Slices ![0, 0, 1] S65536x196x1
  slices_S65536x196x4_S65536x196x1_0_0_2 : S65536x196x4.Slices ![0, 0, 2] S65536x196x1
  slices_S65536x196x4_S65536x196x1_0_0_3 : S65536x196x4.Slices ![0, 0, 3] S65536x196x1
  bcast_S65536x196_S65536x196x1_0_1 : S65536x196.BroadcastsInDim S65536x196x1 (![0, 1] : Fin 2 → Fin S65536x196x1.rank)
  concatenates_S65536x196x1_S65536x196x1_S65536x196x1_S65536x196x1_S65536x196x4_d2 : Shape.Concatenates [S65536x196x1, S65536x196x1, S65536x196x1, S65536x196x1] S65536x196x4 2
  shapeCasts_S65536x196x4_S65536x784 : S65536x196x4.ShapeCasts S65536x784

variable [Facts₀]

class Facts : Prop extends Facts₀ where

variable [Facts]
-- ==== Proof.Spec.lean ====
/-
  The quanvolution filter in closed form, over the extended reals.

  A 28 × 28 image is cut into 196 patches of 2 × 2 pixels; the four pixels `p 0 … p 3` of a patch drive a 4-qubit
  circuit: RY(p l), RZ(a l), RX(b l) on qubit `l`, then CNOT(0, 1) and CNOT(2, 3), then a measurement of Z on every
  qubit. Before the CNOTs qubit `l` is in a product state with

      ⟨Z l⟩ = cos (b l) · cos (p l) + (sin (b l) · sin (p l)) · sin (a l)          (`zq`),

  and a CNOT leaves its control's ⟨Z⟩ alone and turns its target's into the product of the two (`cnot`). The result
  array has one row per image and, per patch, the four measured values side by side: column `4 q + j` is value `j`
  of patch `q` (`entry`, `result`). The angles are a `[2, 4]` array, row 0 the `a`s and row 1 the `b`s; the patches are
  taken as a `[65536, 196, 4]` array `patch`, however they were cut out of the images.
-/
import Idealize.ShloMosaic.PureOps.Ideal
import Idealize.ShloMosaic.Lib.ValueIdx

noncomputable section

namespace Quanv

open Idealize.ShloMosaic Idealize.ShloMosaic.ValueIdx

/-- ⟨Z⟩ of one qubit after RY(p), RZ(a), RX(b), from `cb = cos b`, `sb = sin b`, `sa = sin a`. -/
def zq (cb sb sa p : EReal) : EReal := cb * Ideal.cos p + sb * Ideal.sin p * sa

/-- CNOT(0, 1) and CNOT(2, 3) on a product state: each target's ⟨Z⟩ becomes its product with the control's. -/
def cnot (z : Fin 4 → EReal) : Fin 4 → EReal
  | ⟨0, _⟩ => z 0
  | ⟨1, _⟩ => z 0 * z 1
  | ⟨2, _⟩ => z 2
  | ⟨3, _⟩ => z 2 * z 3

/-- Measured value `j` of patch `q` of image `b`. -/
def entry (ang : (⟨2, ![2, 4]⟩ : Shape).Idx → EReal) (patch : (⟨3, ![65536, 196, 4]⟩ : Shape).Idx → EReal)
    (b : Fin 65536) (q : Fin 196) (j : Fin 4) : EReal :=
  cnot (fun l => zq (Ideal.cos (ang (ix2 (1 : Fin 2) l))) (Ideal.sin (ang (ix2 (1 : Fin 2) l)))
    (Ideal.sin (ang (ix2 (0 : Fin 2) l))) (patch (ix3 b q l))) j

/-- The patch a column of the result belongs to … -/
def patchOf (k : Fin 784) : Fin 196 := ⟨k.val / 4, by have := k.isLt; omega⟩
/-- … and which of the patch's four values it is. -/
def valueOf (k : Fin 784) : Fin 4 := ⟨k.val % 4, Nat.mod_lt _ (by decide)⟩

theorem patchOf_eq (k : Fin 784) (q : Fin 196) (j : Fin 4) (hk : k.val = q.val * 4 + j.val) : patchOf k = q :=
  Fin.ext (by show k.val / 4 = q.val; have := j.isLt; omega)
theorem valueOf_eq (k : Fin 784) (q : Fin 196) (j : Fin 4) (hk : k.val = q.val * 4 + j.val) : valueOf k = j :=
  Fin.ext (by show k.val % 4 = j.val; have := j.isLt; omega)

/-- The whole result: row `b`, column `k` is value `k % 4` of patch `k / 4` of image `b`. -/
def result (ang : (⟨2, ![2, 4]⟩ : Shape).Idx → EReal) (patch : (⟨3, ![65536, 196, 4]⟩ : Shape).Idx → EReal) :
    (⟨2, ![65536, 784]⟩ : Shape).Idx → EReal :=
  fun i => entry ang patch ⟨(i 0).val, idx2_lt0 i⟩ (patchOf ⟨(i 1).val, idx2_lt1 i⟩) (valueOf ⟨(i 1).val, idx2_lt1 i⟩)

/-- The result at column `4 q + j` of row `b`. -/
theorem result_apply (ang : (⟨2, ![2, 4]⟩ : Shape).Idx → EReal) (patch : (⟨3, ![65536, 196, 4]⟩ : Shape).Idx → EReal)
    (b : Fin 65536) (q : Fin 196) (j : Fin 4) (k : Fin 784) (hk : k.val = q.val * 4 + j.val) :
    result ang patch (ix2 b k) = entry ang patch b q j := by
  have e : result ang patch (ix2 b k) = entry ang patch b (patchOf k) (valueOf k) := rfl
  rw [e, patchOf_eq k q j hk, valueOf_eq k q j hk]

end Quanv

end
-- ==== Proof.LibLastAxisGroups.lean ====
/-
  An array whose last axis has extent `b * c` is the same data as a rank-3 array of `b` groups of `c` entries: the
  element at column `q * c + j` of the flat form is entry `j` of group `q`. This file reads, at an index given by
  coordinates, the layout operations that pass between the two forms and that pick or join the entries of a group:

  • the shape casts `[a, b, c] ↔ [a, b·c]` and `[b, c] → [b·c]` (row-major order is kept, so only the column index
    is regrouped);
  • a unit last axis added or dropped, `[a, b] ↔ [a, b, 1]`;
  • the slice that keeps ONE entry of every group, `[a, b, n] → [a, b, 1]` at offset `o` on the last axis;
  • four `[a, b, 1]` columns joined along the last axis into `[a, b, 4]`: entry `j` of a group is column `j`;
  • a `[1, c]` row repeated over `b` rows by `broadcast_in_dim`, and a `[c]` vector tiled `b` times along a
    `[1, b·c]` row (cast to a row, repeated, flattened, cast to a row again): column `q * c + l` holds entry `l`.

  Every lemma is over indices written `ix1 … ix3` (Lib/ValueIdx.lean) and shapes with natural-number extents, so that
  it applies to a printed operation by unification.
-/
import Idealize.ShloMosaic.Lib.Pipeline.Value
import Idealize.ShloMosaic.Lib.ValueIdx

namespace LastAxisGroups

open Idealize.ShloMosaic Idealize.ShloMosaic.ValueIdx

variable {α : Type}

/-- Column `q * c + j` of a last axis of extent `n = b * c`: entry `j` of group `q`. -/
abbrev flat {b c : ℕ} (n : ℕ) (hn : n = b * c) (q : Fin b) (j : Fin c) : Fin n :=
  ⟨q.val * c + j.val, by
    subst hn
    calc q.val * c + j.val < q.val * c + c := Nat.add_lt_add_left j.isLt _
      _ = (q.val + 1) * c := (Nat.succ_mul _ _).symm
      _ ≤ b * c := Nat.mul_le_mul_right c q.isLt⟩

/-- 784 columns are 196 groups of 4. -/
theorem n784 : (784 : ℕ) = 196 * 4 := by norm_num

/-- Every column of a last axis of extent `b * c` is entry `col % c` of group `col / c`. -/
theorem exists_flat {b c : ℕ} (n : ℕ) (hn : n = b * c) (hc : 0 < c) (k : Fin n) :
    ∃ (q : Fin b) (j : Fin c), k = flat n hn q j := by
  have hk : k.val < b * c := hn ▸ k.isLt
  refine ⟨⟨k.val / c, (Nat.div_lt_iff_lt_mul hc).2 hk⟩, ⟨k.val % c, Nat.mod_lt _ hc⟩, Fin.ext ?_⟩
  show k.val = k.val / c * c + k.val % c
  rw [Nat.mul_comm]; exact (Nat.div_add_mod _ _).symm

/-! ## The shape casts between the grouped and the flat form -/

/-- `[a, b, c]` cast to `[a, b·c]`: column `q * c + j` of row `r` is entry `j` of group `q` of row `r`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (r : Fin a) (q : Fin b) (j : Fin c) :
    shapeCast ⟨2, ![a, n]⟩ x h (ix2 r (flat n hn q j)) = x (ix3 r q j) :=
  shapeCast_apply x h _ _ (by
    rw [Shape.rowMajor_val_three, Shape.rowMajor_val_two]
    show (r.val * b + q.val) * c + j.val = r.val * n + (q.val * c + j.val)
    subst hn; ring)

/-- `[a, b·c]` cast to `[a, b, c]`: entry `j` of group `q` of row `r` is column `q * c + j` of row `r`. -/
theorem shapeCast_an_abc_apply {a b c n : ℕ} (hn : n = b * c) (x : (⟨2, ![a, n]⟩ : Shape).Idx → α)
    (h : (⟨2, ![a, n]⟩ : Shape).ShapeCasts ⟨3, ![a, b, c]⟩) (r : Fin a) (q : Fin b) (j : Fin c) :
    shapeCast ⟨3, ![a, b, c]⟩ x h (ix3 r q j) = x (ix2 r (flat n hn q j)) :=
  shapeCast_apply x h _ _ (by
    rw [Shape.rowMajor_val_two, Shape.rowMajor_val_three]
    show r.val * n + (q.val * c + j.val) = (r.val * b + q.val) * c + j.val
    subst hn; ring)

/-- `[b, c]` cast to `[b·c]`: position `q * c + j` is entry `j` of row `q`. -/
theorem shapeCast_bc_n_apply {b c n : ℕ} (hn : n = b * c) (x : (⟨2, ![b, c]⟩ : Shape).Idx → α)
    (h : (⟨2, ![b, c]⟩ : Shape).ShapeCasts ⟨1, ![n]⟩) (q : Fin b) (j : Fin c) :
    shapeCast ⟨1, ![n]⟩ x h (ix1 (flat n hn q j)) = x (ix2 q j) :=
  shapeCast_apply x h _ _ (by
    rw [Shape.rowMajor_val_two, Shape.rowMajor_val_one]
    rfl)

/-! ## A unit last axis -/

/-- `[a, b, 1]` cast to `[a, b]` reads, at `(r, q)`, the operand at `(r, q, 0)`. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (q : Fin b) :
    shapeCast ⟨2, ![a, b]⟩ x h (ix2 r q) = x (ix3 r q (0 : Fin 1)) :=
  shapeCast_apply x h _ _ (by
    rw [Shape.rowMajor_val_three, Shape.rowMajor_val_two]
    show (r.val * b + q.val) * 1 + 0 = r.val * b + q.val
    rw [Nat.mul_one, Nat.add_zero])

/-- `[a, b]` cast to `[a, b, 1]` reads, at `(r, q, u)`, the operand at `(r, q)`. -/
theorem shapeCast_ab_ab1_apply {a b : ℕ} (x : (⟨2, ![a, b]⟩ : Shape).Idx → α)
    (h : (⟨2, ![a, b]⟩ : Shape).ShapeCasts ⟨3, ![a, b, 1]⟩) (r : Fin a) (q : Fin b) (u : Fin 1) :
    shapeCast ⟨3, ![a, b, 1]⟩ x h (ix3 r q u) = x (ix2 r q) :=
  shapeCast_apply x h _ _ (by
    have hu : u.val = 0 := by omega
    rw [Shape.rowMajor_val_two, Shape.rowMajor_val_three]
    show r.val * b + q.val = (r.val * b + q.val) * 1 + u.val
    rw [hu, Nat.mul_one, Nat.add_zero])

/-! ## One entry of every group -/

/-- The slice `[a, b, n] → [a, b, 1]` at offset `o` on the last axis keeps entry `o` of every group. -/
theorem slice3_last_unit_apply {a b n : ℕ} (o : ℕ) (X : (⟨3, ![a, b, n]⟩ : Shape).Idx → α)
    (h : (⟨3, ![a, b, n]⟩ : Shape).Slices ![0, 0, o] ⟨3, ![a, b, 1]⟩)
    (r : Fin a) (q : Fin b) (u : Fin 1) (k : Fin n) (hk : k.val = o) :
    extractStridedSlice ⟨3, ![a, b, 1]⟩ ![0, 0, o] X h (ix3 r q u) = X (ix3 r q k) :=
  extractStridedSlice_apply _ _ _ _ _ (fun ax => by
    match ax with
    | ⟨0, _⟩ => exact (Nat.zero_add _).symm
    | ⟨1, _⟩ => exact (Nat.zero_add _).symm
    | ⟨2, _⟩ =>
      show k.val = o + u.val
      have hu : u.val = 0 := by omega
      rw [hk, hu, Nat.add_zero])

/-! ## Four columns joined into groups of four -/

/-- One of four things, by its number. -/
def pick4 {β : Type} (x0 x1 x2 x3 : β) : Fin 4 → β
  | ⟨0, _⟩ => x0
  | ⟨1, _⟩ => x1
  | ⟨2, _⟩ => x2
  | ⟨3, _⟩ => x3

/-- Four `[a, b, 1]` columns joined along the last axis: entry `j` of group `q` of row `r` is column `j` at `(r, q, 0)`. -/
theorem concatenate4_unit_apply {a b : ℕ} (x0 x1 x2 x3 : (⟨3, ![a, b, 1]⟩ : Shape).Idx → α)
    (h : Shape.Concatenates [(⟨3, ![a, b, 1]⟩ : Shape), ⟨3, ![a, b, 1]⟩, ⟨3, ![a, b, 1]⟩, ⟨3, ![a, b, 1]⟩] ⟨3, ![a, b, 4]⟩ 2)
    (r : Fin a) (q : Fin b) (j : Fin 4) :
    concatenate ⟨3, ![a, b, 4]⟩ 2 [⟨⟨3, ![a, b, 1]⟩, x0⟩, ⟨⟨3, ![a, b, 1]⟩, x1⟩, ⟨⟨3, ![a, b, 1]⟩, x2⟩, ⟨⟨3, ![a, b, 1]⟩, x3⟩] h (ix3 r q j)
      = pick4 x0 x1 x2 x3 j (ix3 r q (0 : Fin 1)) := by
  have hi : ∀ (jj : Fin 4) (bx : Fin (⟨3, ![a, b, 1]⟩ : Shape).rank), bx.cast (rfl : (3 : ℕ) = 3) ≠ (2 : Fin 3) →
      ((ix3 r q (0 : Fin 1)) bx).val = ((ix3 r q jj) (bx.cast rfl)).val := fun jj bx hb => by
    match bx with
    | ⟨0, _⟩ => rfl
    | ⟨1, _⟩ => rfl
    | ⟨2, _⟩ => exact absurd rfl hb
  match j with
  | ⟨0, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 0 (by simp) ⟨3, ![a, b, 1]⟩ x0 rfl rfl 0 rfl _ (hi _) rfl
  | ⟨1, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 1 (by simp) ⟨3, ![a, b, 1]⟩ x1 rfl rfl 1 rfl _ (hi _) rfl
  | ⟨2, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 2 (by simp) ⟨3, ![a, b, 1]⟩ x2 rfl rfl 2 rfl _ (hi _) rfl
  | ⟨3, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 3 (by simp) ⟨3, ![a, b, 1]⟩ x3 rfl rfl 3 rfl _ (hi _) rfl

/-! ## A vector repeated along a row -/

/-- A `[1, c]` row repeated over `b` rows (`broadcast_in_dim`, axes kept): row `q` at `l` is the row at `l`. -/
theorem broadcastInDim_1c_bc_apply {b c : ℕ} (x : (⟨2, ![1, c]⟩ : Shape).Idx → α)
    (h : (⟨2, ![1, c]⟩ : Shape).BroadcastsInDim ⟨2, ![b, c]⟩ ![0, 1]) (q : Fin b) (l : Fin c) :
    broadcastInDim ⟨2, ![b, c]⟩ ![0, 1] h x (ix2 q l) = x (ix2 (0 : Fin 1) l) := by
  refine broadcastInDim_apply _ h x (ix2 q l) (ix2 (0 : Fin 1) l) fun ax => ?_
  match ax with
  | ⟨0, _⟩ => rfl
  | ⟨1, _⟩ =>
    show l.val = if c = 1 then 0 else l.val
    split
    · have := l.isLt; omega
    · rfl

/-- A `[c]` vector tiled `b` times along a `[1, b·c]` row — cast to a `[1, c]` row, repeated over `b` rows, flattened
    to `[b·c]`, cast to a row —: column `q * c + l` holds entry `l`. -/
theorem tiled_row_apply {b c n : ℕ} (hn : n = b * c) (u : (⟨1, ![c]⟩ : Shape).Idx → α)
    (h0 : (⟨1, ![c]⟩ : Shape).ShapeCasts ⟨2, ![1, c]⟩)
    (h1 : (⟨2, ![1, c]⟩ : Shape).BroadcastsInDim ⟨2, ![b, c]⟩ ![0, 1])
    (h2 : (⟨2, ![b, c]⟩ : Shape).ShapeCasts ⟨1, ![n]⟩)
    (h3 : (⟨1, ![n]⟩ : Shape).ShapeCasts ⟨2, ![1, n]⟩) (z : Fin 1) (q : Fin b) (l : Fin c) :
    shapeCast ⟨2, ![1, n]⟩ (shapeCast ⟨1, ![n]⟩ (broadcastInDim ⟨2, ![b, c]⟩ ![0, 1] h1 (shapeCast ⟨2, ![1, c]⟩ u h0)) h2) h3
        (ix2 z (flat n hn q l)) = u (ix1 l) := by
  have e1 := shapeCast_apply (shapeCast ⟨1, ![n]⟩ (broadcastInDim ⟨2, ![b, c]⟩ ![0, 1] h1 (shapeCast ⟨2, ![1, c]⟩ u h0)) h2) h3
    (ix2 z (flat n hn q l)) (ix1 (flat n hn q l)) (by
      have hz : z.val = 0 := by omega
      rw [Shape.rowMajor_val_one, Shape.rowMajor_val_two]
      show q.val * c + l.val = z.val * n + (q.val * c + l.val)
      rw [hz, Nat.zero_mul, Nat.zero_add])
  have e4 := shapeCast_apply u h0 (ix2 (0 : Fin 1) l) (ix1 l) (by
      rw [Shape.rowMajor_val_one, Shape.rowMajor_val_two]
      show l.val = 0 * c + l.val
      rw [Nat.zero_mul, Nat.zero_add])
  rw [e1, shapeCast_bc_n_apply hn _ h2 q l, broadcastInDim_1c_bc_apply _ h1 q l, e4]

end LastAxisGroups
-- ==== Proof.RefValue.lean ====
/-
  The reference computes `Quanv.result`.

  Its program forms the patch array `p : [65536, 196, 4]`, broadcasts `cos b`, `sin b`, `sin a` (each a vector of four,
  one entry per qubit) along the first two axes, and computes `z = cos b · cos p + (sin b · sin p) · sin a` entry by
  entry; it then takes the four `[65536, 196]` columns `z0 … z3` of `z`, stacks `z0, z0 · z1, z2, z2 · z3` along a new
  last axis and flattens the last two axes. Read at row `b`, column `4 q + j`, that is value `j` of patch `q` of image
  `b` with the patches the program's own `p`.
-/
import proofs.«137808_j65481071404034_1_alg».proof.Proof.Gen.ReferenceIdeal.Read
import proofs.«137808_j65481071404034_1_alg».proof.Proof.Spec
import proofs.«137808_j65481071404034_1_alg».proof.Proof.LibLastAxisGroups

noncomputable section

namespace Cert.ReferenceIdeal.RefValue

open Cert.ReferenceIdeal Cert.ReferenceIdeal.Read Idealize.ShloMosaic Idealize.ShloMosaic.ValueIdx LastAxisGroups Quanv

variable (x0 : (⟨S65536x1x28x28, .f32⟩ : BufTy).Contents (Elt Ideal)) (x1 : (⟨S2x4, .f32⟩ : BufTy).Contents (Elt Ideal))

/-! ## The angles -/

/-- Row 1 of the angles, as a vector of four: the `b`s. -/
theorem row_b (l : Fin 4) : val_main_v6 (F := Ideal) x1 (ix1 l) = x1 (ix2 (1 : Fin 2) l) := by
  rw [val_main_v6_apply, val_main_v5_apply]
  refine congrArg x1 ?_
  funext a; apply Fin.ext
  match a with
  | ⟨0, _⟩ => rfl
  | ⟨1, _⟩ => exact Nat.mod_eq_of_lt l.isLt

/-- Row 0 of the angles, as a vector of four: the `a`s. -/
theorem row_a (l : Fin 4) : val_main_v4 (F := Ideal) x1 (ix1 l) = x1 (ix2 (0 : Fin 2) l) := by
  rw [val_main_v4_apply, val_main_v3_apply]
  refine congrArg x1 ?_
  funext a; apply Fin.ext
  match a with
  | ⟨0, _⟩ => rfl
  | ⟨1, _⟩ => exact Nat.mod_eq_of_lt l.isLt

/-- `cos b` broadcast over images and patches. -/
theorem cosb_apply (b : Fin 65536) (q : Fin 196) (l : Fin 4) :
    val_main_v10 (F := Ideal) x1 (ix3 b q l) = Ideal.cos (x1 (ix2 (1 : Fin 2) l)) := by
  rw [val_main_v10_apply, val_main_v9_apply]
  have e : idx_main_v9 (idx_main_v10 (ix3 b q l)) = ix1 l := by
    funext a; apply Fin.ext
    match a with
    | ⟨0, _⟩ => rfl
  rw [e, val_main_v7_apply, row_b]
  rfl

/-- `sin b` broadcast over images and patches. -/
theorem sinb_apply (b : Fin 65536) (q : Fin 196) (l : Fin 4) :
    val_main_v15 (F := Ideal) x1 (ix3 b q l) = Ideal.sin (x1 (ix2 (1 : Fin 2) l)) := by
  rw [val_main_v15_apply, val_main_v14_apply]
  have e : idx_main_v14 (idx_main_v15 (ix3 b q l)) = ix1 l := by
    funext a; apply Fin.ext
    match a with
    | ⟨0, _⟩ => rfl
  rw [e, val_main_v12_apply, row_b]
  rfl

/-- `sin a` broadcast over images and patches. -/
theorem sina_apply (b : Fin 65536) (q : Fin 196) (l : Fin 4) :
    val_main_v19 (F := Ideal) x1 (ix3 b q l) = Ideal.sin (x1 (ix2 (0 : Fin 2) l)) := by
  rw [val_main_v19_apply, val_main_v18_apply]
  have e : idx_main_v18 (idx_main_v19 (ix3 b q l)) = ix1 l := by
    funext a; apply Fin.ext
    match a with
    | ⟨0, _⟩ => rfl
  rw [e, val_main_v17_apply, row_a]
  rfl

/-! ## ⟨Z⟩ of every qubit before the CNOTs -/

/-- `z` at image `b`, patch `q`, qubit `l`. -/
theorem z_apply (b : Fin 65536) (q : Fin 196) (l : Fin 4) :
    val_main_v21 (F := Ideal) x0 x1 (ix3 b q l)
      = zq (Ideal.cos (x1 (ix2 (1 : Fin 2) l))) (Ideal.sin (x1 (ix2 (1 : Fin 2) l))) (Ideal.sin (x1 (ix2 (0 : Fin 2) l)))
          (val_main_v2 (F := Ideal) x0 (ix3 b q l)) := by
  rw [val_main_v21_apply, val_main_v11_apply, val_main_v20_apply, val_main_v16_apply, val_main_v8_apply,
    val_main_v13_apply, cosb_apply, sinb_apply, sina_apply]
  rfl

/-! ## The four columns of `z` -/

theorem col0_apply (b : Fin 65536) (q : Fin 196) :
    val_main_v23 (F := Ideal) x0 x1 (ix2 b q) = val_main_v21 (F := Ideal) x0 x1 (ix3 b q (0 : Fin 4)) := by
  rw [val_main_v23_apply, val_main_v22_apply]
  refine congrArg _ ?_
  funext a; apply Fin.ext
  have hq : q.val < 196 := q.isLt
  match a with
  | ⟨0, _⟩ => show (b.val * 196 + q.val) / 196 = b.val; omega
  | ⟨1, _⟩ => show (b.val * 196 + q.val) / 1 % 196 = q.val; omega
  | ⟨2, _⟩ => rfl

theorem col1_apply (b : Fin 65536) (q : Fin 196) :
    val_main_v25 (F := Ideal) x0 x1 (ix2 b q) = val_main_v21 (F := Ideal) x0 x1 (ix3 b q (1 : Fin 4)) := by
  rw [val_main_v25_apply, val_main_v24_apply]
  refine congrArg _ ?_
  funext a; apply Fin.ext
  have hq : q.val < 196 := q.isLt
  match a with
  | ⟨0, _⟩ => show (b.val * 196 + q.val) / 196 = b.val; omega
  | ⟨1, _⟩ => show (b.val * 196 + q.val) / 1 % 196 = q.val; omega
  | ⟨2, _⟩ => rfl

theorem col2_apply (b : Fin 65536) (q : Fin 196) :
    val_main_v27 (F := Ideal) x0 x1 (ix2 b q) = val_main_v21 (F := Ideal) x0 x1 (ix3 b q (2 : Fin 4)) := by
  rw [val_main_v27_apply, val_main_v26_apply]
  refine congrArg _ ?_
  funext a; apply Fin.ext
  have hq : q.val < 196 := q.isLt
  match a with
  | ⟨0, _⟩ => show (b.val * 196 + q.val) / 196 = b.val; omega
  | ⟨1, _⟩ => show (b.val * 196 + q.val) / 1 % 196 = q.val; omega
  | ⟨2, _⟩ => rfl

theorem col3_apply (b : Fin 65536) (q : Fin 196) :
    val_main_v29 (F := Ideal) x0 x1 (ix2 b q) = val_main_v21 (F := Ideal) x0 x1 (ix3 b q (3 : Fin 4)) := by
  rw [val_main_v29_apply, val_main_v28_apply]
  refine congrArg _ ?_
  funext a; apply Fin.ext
  have hq : q.val < 196 := q.isLt
  match a with
  | ⟨0, _⟩ => show (b.val * 196 + q.val) / 196 = b.val; omega
  | ⟨1, _⟩ => show (b.val * 196 + q.val) / 1 % 196 = q.val; omega
  | ⟨2, _⟩ => rfl

/-- A column put back as a `[65536, 196, 1]` array is read at `(b, q)`: the four broadcasts' common index map. -/
theorem unit_idx (b : Fin 65536) (q : Fin 196) : idx_main_v32 (ix3 b q (0 : Fin 1)) = ix2 b q := by
  funext a; apply Fin.ext
  match a with
  | ⟨0, _⟩ => rfl
  | ⟨1, _⟩ => rfl

/-! ## The result -/

/-- The reference's result at row `b`, column `4 q + j`. -/
theorem out_apply (b : Fin 65536) (q : Fin 196) (j : Fin 4) :
    val_main_v37 (F := Ideal) x0 x1 (ix2 b (flat 784 n784 q j)) = entry x1 (val_main_v2 (F := Ideal) x0) b q j := by
  rw [val_main_v37_apply]
  have e : idx_main_v37 (ix2 b (flat 784 n784 q j)) = ix3 b q j := by
    funext a; apply Fin.ext
    have hq : q.val < 196 := q.isLt
    have hj : j.val < 4 := j.isLt
    match a with
    | ⟨0, _⟩ => show (b.val * 784 + (q.val * 4 + j.val)) / 784 = b.val; omega
    | ⟨1, _⟩ => show (b.val * 784 + (q.val * 4 + j.val)) / 4 % 196 = q.val; omega
    | ⟨2, _⟩ => show (b.val * 784 + (q.val * 4 + j.val)) % 4 = j.val; omega
  rw [e]
  unfold val_main_v36
  refine (concatenate4_unit_apply _ _ _ _ _ b q j).trans ?_
  match j with
  | ⟨0, _⟩ =>
    show val_main_v32 (F := Ideal) x0 x1 (ix3 b q (0 : Fin 1)) = _
    rw [val_main_v32_apply, unit_idx, col0_apply, z_apply]
    rfl
  | ⟨1, _⟩ =>
    show val_main_v33 (F := Ideal) x0 x1 (ix3 b q (0 : Fin 1)) = _
    rw [val_main_v33_apply]
    show val_main_v30 (F := Ideal) x0 x1 (idx_main_v32 (ix3 b q (0 : Fin 1))) = _
    rw [unit_idx, val_main_v30_apply, col0_apply, col1_apply, z_apply, z_apply]
    rfl
  | ⟨2, _⟩ =>
    show val_main_v34 (F := Ideal) x0 x1 (ix3 b q (0 : Fin 1)) = _
    rw [val_main_v34_apply]
    show val_main_v27 (F := Ideal) x0 x1 (idx_main_v32 (ix3 b q (0 : Fin 1))) = _
    rw [unit_idx, col2_apply, z_apply]
    rfl
  | ⟨3, _⟩ =>
    show val_main_v35 (F := Ideal) x0 x1 (ix3 b q (0 : Fin 1)) = _
    rw [val_main_v35_apply]
    show val_main_v31 (F := Ideal) x0 x1 (idx_main_v32 (ix3 b q (0 : Fin 1))) = _
    rw [unit_idx, val_main_v31_apply, col2_apply, col3_apply, z_apply, z_apply]
    rfl

/-- THE REFERENCE IS THE CLOSED FORM: its result stage, as a whole array, is `Quanv.result` of the angles and of its
    own patch array. -/
theorem result_eq : val_main_v37 (F := Ideal) x0 x1 = result x1 (val_main_v2 (F := Ideal) x0) := by
  funext i
  obtain ⟨b, k, rfl⟩ : ∃ (b : Fin 65536) (k : Fin 784), i = ix2 b k := ⟨i 0, i 1, eq_ix2 i⟩
  obtain ⟨q, j, rfl⟩ := exists_flat 784 n784 (by decide) k
  rw [out_apply, result_apply x1 _ b q j _ rfl]

end Cert.ReferenceIdeal.RefValue

end
-- ==== Proof.Payload.lean ====
/-
  What the kernel body stores, read at one element.

  The body loads a `[1024, 784]` block `p` of patch pixels (a row per image, the pixels of patch `q` in columns
  `4 q … 4 q + 3`) and three `[1, 784]` rows `cb`, `sb`, `sa`; it computes `z = cb · cos p + (sb · sin p) · sa` with the
  rows repeated down the block, regroups `z` as `[1024, 196, 4]`, takes its four `[1024, 196]` columns `z0 … z3`, joins
  `z0, z0 · z1, z2, z2 · z3` along a new last axis and flattens again. So the stored block at row `r`, column
  `4 q + j` is `Quanv.cnot` of the four `Quanv.zq` of patch `q`, at `j`.
-/
import proofs.«137808_j65481071404034_1_alg».proof.Proof.Gen.KernelIdeal.Skeleton
import proofs.«137808_j65481071404034_1_alg».proof.Proof.Spec
import proofs.«137808_j65481071404034_1_alg».proof.Proof.LibLastAxisGroups
import Idealize.ShloMosaic.Lib.ValueLayout

noncomputable section

namespace Cert.KernelIdeal.Payload

open Cert.KernelIdeal Cert.KernelIdeal.Gen Idealize.ShloMosaic Idealize.ShloMosaic.ValueIdx LastAxisGroups Quanv

variable (v0 : Vec Ideal S1024x784 .f32) (v2 v4 v6 : Vec Ideal S1x784 .f32)

/-- ⟨Z⟩ of every qubit of every patch of the block, before the CNOTs: the body's `z`. -/
def zBlock : FVec Ideal S1024x784 .f32 :=
  addf (mulf (broadcastTo S1024x784 (shapeCast S1x784 v2 shapeCasts_S1x784_S1x784) broadcasts_S1x784_S1024x784)
      (cos (shapeCast S1024x784 v0 shapeCasts_S1024x784_S1024x784)))
    (mulf (mulf (broadcastTo S1024x784 (shapeCast S1x784 v4 shapeCasts_S1x784_S1x784) broadcasts_S1x784_S1024x784)
        (sin (shapeCast S1024x784 v0 shapeCasts_S1024x784_S1024x784)))
      (broadcastTo S1024x784 (shapeCast S1x784 v6 shapeCasts_S1x784_S1x784) broadcasts_S1x784_S1024x784))

/-- `z` at row `r`, column `k`: the rows `cb`, `sb`, `sa` at `k` and the pixel at `(r, k)`. -/
theorem zBlock_apply (r : Fin 1024) (k : Fin 784) :
    zBlock v0 v2 v4 v6 (ix2 r k)
      = zq (v2 (ix2 (0 : Fin 1) k)) (v4 (ix2 (0 : Fin 1) k)) (v6 (ix2 (0 : Fin 1) k)) (v0 (ix2 r k)) := by
  unfold zBlock
  simp only [shapeCast_self]
  rw [addf_apply, mulf_apply, mulf_apply, mulf_apply, broadcastTo_1b_ab_apply, broadcastTo_1b_ab_apply,
    broadcastTo_1b_ab_apply]
  rfl

/-- Column `l` of `z` regrouped by patches — the slice at offset `o = l` of the last axis, its unit axis dropped —
    at row `r`, patch `q`. -/
theorem col_apply (o : ℕ) (hs : S1024x196x4.Slices ![0, 0, o] S1024x196x1) (l : Fin 4) (hl : l.val = o)
    (r : Fin 1024) (q : Fin 196) :
    shapeCast S1024x196 (extractStridedSlice S1024x196x1 ![0, 0, o]
        (shapeCast S1024x196x4 (zBlock v0 v2 v4 v6) shapeCasts_S1024x784_S1024x196x4) hs) shapeCasts_S1024x196x1_S1024x196 (ix2 r q)
      = zq (v2 (ix2 (0 : Fin 1) (flat 784 n784 q l))) (v4 (ix2 (0 : Fin 1) (flat 784 n784 q l)))
          (v6 (ix2 (0 : Fin 1) (flat 784 n784 q l))) (v0 (ix2 r (flat 784 n784 q l))) := by
  refine (shapeCast_ab1_ab_apply _ _ r q).trans ?_
  refine (slice3_last_unit_apply o _ hs r q (0 : Fin 1) l hl).trans ?_
  refine (shapeCast_an_abc_apply n784 _ _ r q l).trans ?_
  exact zBlock_apply v0 v2 v4 v6 r (flat 784 n784 q l)

/-- THE STORED BLOCK at row `r`, column `4 q + j`: value `j` of patch `q`, from the four ⟨Z⟩ of the patch. -/
theorem pay_apply (r : Fin 1024) (q : Fin 196) (j : Fin 4) :
    k0_pay1 (F := Ideal) v0 v2 v4 v6 (ix2 r (flat 784 n784 q j))
      = cnot (fun l => zq (v2 (ix2 (0 : Fin 1) (flat 784 n784 q l))) (v4 (ix2 (0 : Fin 1) (flat 784 n784 q l)))
          (v6 (ix2 (0 : Fin 1) (flat 784 n784 q l))) (v0 (ix2 r (flat 784 n784 q l)))) j := by
  unfold k0_pay1
  refine (shapeCast_abc_an_apply n784 _ _ r q j).trans ?_
  refine (concatenate4_unit_apply _ _ _ _ _ r q j).trans ?_
  match j with
  | ⟨0, _⟩ =>
    simp only [pick4]
    refine (shapeCast_ab_ab1_apply _ _ r q (0 : Fin 1)).trans ?_
    exact col_apply v0 v2 v4 v6 0 _ 0 rfl r q
  | ⟨1, _⟩ =>
    simp only [pick4]
    refine (shapeCast_ab_ab1_apply _ _ r q (0 : Fin 1)).trans ?_
    refine (mulf_apply _ _ _).trans ?_
    exact congrArg₂ (· * ·) (col_apply v0 v2 v4 v6 0 _ 0 rfl r q) (col_apply v0 v2 v4 v6 1 _ 1 rfl r q)
  | ⟨2, _⟩ =>
    simp only [pick4]
    refine (shapeCast_ab_ab1_apply _ _ r q (0 : Fin 1)).trans ?_
    exact col_apply v0 v2 v4 v6 2 _ 2 rfl r q
  | ⟨3, _⟩ =>
    simp only [pick4]
    refine (shapeCast_ab_ab1_apply _ _ r q (0 : Fin 1)).trans ?_
    refine (mulf_apply _ _ _).trans ?_
    exact congrArg₂ (· * ·) (col_apply v0 v2 v4 v6 2 _ 2 rfl r q) (col_apply v0 v2 v4 v6 3 _ 3 rfl r q)

end Cert.KernelIdeal.Payload

end
-- ==== Proof.HostPrefix.lean ====
/-
  The arrays the kernel's windows read, as the host leaves them before the call.

  • The patch pixels: the images `[65536, 1, 28, 28]` regrouped as `[65536, 14, 2, 14, 2]`, the two middle pairs of
    axes swapped so that a patch's four pixels are adjacent, and flattened to `[65536, 784]` (`patchesFlat`). The
    reference makes the same regrouping and swap and flattens only to `[65536, 196, 4]`; both keep row-major order,
    so column `4 q + l` of the flat form is pixel `l` of patch `q` of the reference's array (`patchesFlat_apply`).
  • The three rows `cos b`, `sin b`, `sin a`: a row of the angles as a vector of four (`angles0` the `a`s, `angles1` the
    `b`s), its cosine or sine, tiled 196 times along a `[1, 784]` row (`tiledRow`): column `4 q + l` holds entry `l`.
-/
import proofs.«137808_j65481071404034_1_alg».proof.Proof.Gen.KernelIdeal.Frame
import proofs.«137808_j65481071404034_1_alg».proof.Proof.Gen.ReferenceIdeal.Read
import proofs.«137808_j65481071404034_1_alg».proof.Proof.LibLastAxisGroups
import Idealize.ShloMosaic.Lib.ValueLayout
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.ValueIdx LastAxisGroups

/-! ## The terms -/

/-- The images cut into 2 × 2 patches, a row of 784 pixels per image. -/
def patchesFlat (x0 : FVec Ideal S65536x1x28x28 .f32) : FVec Ideal S65536x784 .f32 :=
  shapeCast S65536x784
    (transpose S65536x14x14x2x2 [0, 1, 3, 2, 4]
      (shapeCast S65536x14x2x14x2 x0 shapeCasts_S65536x1x28x28_S65536x14x2x14x2)
      transposes_S65536x14x2x14x2_S65536x14x14x2x2_0_1_3_2_4)
    shapeCasts_S65536x14x14x2x2_S65536x784

/-- Row 0 of the angles (the `a`s) as a vector of four. -/
def angles0 (x1 : FVec Ideal S2x4 .f32) : FVec Ideal S4 .f32 :=
  shapeCast S4 (extractStridedSlice S1x4 ![0, 0] x1 slices_S2x4_S1x4_0_0) shapeCasts_S1x4_S4

/-- Row 1 of the angles (the `b`s) as a vector of four. -/
def angles1 (x1 : FVec Ideal S2x4 .f32) : FVec Ideal S4 .f32 :=
  shapeCast S4 (extractStridedSlice S1x4 ![1, 0] x1 slices_S2x4_S1x4_1_0) shapeCasts_S1x4_S4

/-- A vector of four tiled 196 times along a `[1, 784]` row. -/
def tiledRow (u : FVec Ideal S4 .f32) : FVec Ideal S1x784 .f32 :=
  shapeCast S1x784
    (shapeCast S784
      (broadcastInDim S196x4 ![0, 1] bcast_S1x4_S196x4_0_1 (shapeCast S1x4 u shapeCasts_S4_S1x4))
      shapeCasts_S196x4_S784)
    shapeCasts_S784_S1x784

/-! ## What the windows' arrays hold when the call is reached -/

variable (m : (ℓ : Loc nD τ sig) → Buf (Elt Ideal) ℓ)

theorem V_patches (c : Dev nD) :
    (V m c main_v2 : FVec Ideal S65536x784 .f32) = patchesFlat (m ((c : Thread nD τ).loc main_arg0)) := by
  dsimp only [Gen.V, Gen.hostOps0]; after_results; rfl

theorem V_cosb (c : Dev nD) :
    (V m c main_v13 : FVec Ideal S1x784 .f32) = tiledRow (Host.cos (F := Ideal) (angles1 (m ((c : Thread nD τ).loc main_arg1)))) := by
  dsimp only [Gen.V, Gen.hostOps0]; after_results; rfl

theorem V_sinb (c : Dev nD) :
    (V m c main_v17 : FVec Ideal S1x784 .f32) = tiledRow (Host.sin (F := Ideal) (angles1 (m ((c : Thread nD τ).loc main_arg1)))) := by
  dsimp only [Gen.V, Gen.hostOps0]; after_results; rfl

theorem V_sina (c : Dev nD) :
    (V m c main_v21 : FVec Ideal S1x784 .f32) = tiledRow (Host.sin (F := Ideal) (angles0 (m ((c : Thread nD τ).loc main_arg1)))) := by
  dsimp only [Gen.V, Gen.hostOps0]; after_results; rfl

/-! ## The terms read at an index -/

theorem angles0_apply (x1 : FVec Ideal S2x4 .f32) (l : Fin 4) : angles0 x1 (ix1 l) = x1 (ix2 (0 : Fin 2) l) := by
  unfold angles0
  refine (shapeCast_1a_a_apply _ _ l).trans ?_
  exact slice2_axis0_apply 0 x1 _ (0 : Fin 1) l (0 : Fin 2) rfl

theorem angles1_apply (x1 : FVec Ideal S2x4 .f32) (l : Fin 4) : angles1 x1 (ix1 l) = x1 (ix2 (1 : Fin 2) l) := by
  unfold angles1
  refine (shapeCast_1a_a_apply _ _ l).trans ?_
  exact slice2_axis0_apply 1 x1 _ (0 : Fin 1) l (1 : Fin 2) rfl

theorem tiledRow_apply (u : FVec Ideal S4 .f32) (z : Fin 1) (q : Fin 196) (l : Fin 4) :
    tiledRow u (ix2 z (flat 784 n784 q l)) = u (ix1 l) :=
  tiled_row_apply n784 u _ _ _ _ z q l

/-- Column `4 q + l` of the flat patch array is pixel `l` of patch `q` of the reference's `[65536, 196, 4]` array: both
    are casts of one `[65536, 14, 14, 2, 2]` array, read at the index with the same row-major position. -/
theorem patchesFlat_apply (x0 : FVec Ideal S65536x1x28x28 .f32) (b : Fin 65536) (q : Fin 196) (l : Fin 4) :
    patchesFlat x0 (ix2 b (flat 784 n784 q l)) = Cert.ReferenceIdeal.Read.val_main_v2 (F := Ideal) x0 (ix3 b q l) := by
  rw [Cert.ReferenceIdeal.Read.val_main_v2_apply]
  refine shapeCast_apply (Cert.ReferenceIdeal.Read.val_main_v1 (F := Ideal) x0) shapeCasts_S65536x14x14x2x2_S65536x784
    (ix2 b (flat 784 n784 q l)) (Cert.ReferenceIdeal.Read.idx_main_v2 (ix3 b q l)) ?_
  rw [Shape.rowMajor_val_five, Shape.rowMajor_val_two]
  have hq : q.val < 196 := q.isLt
  have hl : l.val < 4 := l.isLt
  show (((((b.val * 196 + q.val) * 4 + l.val) / 784 * 14 + ((b.val * 196 + q.val) * 4 + l.val) / 56 % 14) * 14
      + ((b.val * 196 + q.val) * 4 + l.val) / 4 % 14) * 2 + ((b.val * 196 + q.val) * 4 + l.val) / 2 % 2) * 2
      + ((b.val * 196 + q.val) * 4 + l.val) % 2 = b.val * 784 + (q.val * 4 + l.val)
  omega

end Cert.KernelIdeal.HostPrefix

end
-- ==== Proof.KernelValue.lean ====
/-
  The array the kernel ends with is `Quanv.result`.

  The call runs the body at 64 grid points; point `t` reads rows `1024 t … 1024 t + 1023` of the flat patch array and
  the three whole rows `cos b`, `sin b`, `sin a`, and writes back rows `1024 t … 1024 t + 1023` of the result. What it
  writes at row `r`, column `4 q + j` of its block is value `j` of patch `q` of image `1024 t + r` (`point_eq`: the
  stored block read at an element, the host's arrays read at an index, and the closed form at `(1024 t + r, 4 q + j)`
  are one expression). The 64 blocks tile the `65536` rows, so the whole array is the closed form (`final`, `run`).
-/
import proofs.«137808_j65481071404034_1_alg».proof.Proof.Gen.KernelIdeal.Value
import proofs.«137808_j65481071404034_1_alg».proof.Proof.Payload
import proofs.«137808_j65481071404034_1_alg».proof.Proof.HostPrefix
import proofs.«137808_j65481071404034_1_alg».proof.Proof.Spec
import proofs.«137808_j65481071404034_1_alg».proof.Proof.LibLastAxisGroups

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx LastAxisGroups Quanv Cert.KernelIdeal.HostPrefix Cert.KernelIdeal.Payload

/-- The closed form of the images `x0` and the angles `x1`, the patches cut as the reference cuts them. -/
def G (x0 : FVec Ideal S65536x1x28x28 .f32) (x1 : FVec Ideal S2x4 .f32) : FVec Ideal S65536x784 .f32 :=
  result x1 (Cert.ReferenceIdeal.Read.val_main_v2 (F := Ideal) x0)

/-! ## One element of one point's block -/

/-- A block `v0` that holds rows `1024 tt …` of the flat patch array, and the three rows, give at element `y` of the
    stored block the closed form at the array index `i` under it (row `1024 tt + y 0`, column `y 1`). -/
theorem point_eq (x0 : FVec Ideal S65536x1x28x28 .f32) (x1 : FVec Ideal S2x4 .f32)
    (v0 : FVec Ideal S1024x784 .f32) (v2 v4 v6 : FVec Ideal S1x784 .f32) (tt : ℕ)
    (h0 : ∀ (y : S1024x784.Idx) (i : S65536x784.Idx), (i 0).val = tt * 1024 + (y 0).val → (i 1).val = (y 1).val →
      v0 y = patchesFlat x0 i)
    (h2 : v2 = tiledRow (Host.cos (F := Ideal) (angles1 x1)))
    (h4 : v4 = tiledRow (Host.sin (F := Ideal) (angles1 x1)))
    (h6 : v6 = tiledRow (Host.sin (F := Ideal) (angles0 x1)))
    (y : S1024x784.Idx) (i : S65536x784.Idx) (hi0 : (i 0).val = tt * 1024 + (y 0).val) (hi1 : (i 1).val = (y 1).val) :
    k0_pay1 (F := Ideal) v0 v2 v4 v6 y = G x0 x1 i := by
  obtain ⟨r, k, rfl⟩ : ∃ (r : Fin 1024) (k : Fin 784), y = ix2 r k := ⟨y 0, y 1, eq_ix2 y⟩
  obtain ⟨b, k', rfl⟩ : ∃ (b : Fin 65536) (k' : Fin 784), i = ix2 b k' := ⟨i 0, i 1, eq_ix2 i⟩
  obtain rfl : k' = k := Fin.ext hi1
  obtain ⟨q, j, rfl⟩ := exists_flat 784 n784 (by decide) k'
  subst h2 h4 h6
  rw [pay_apply]
  unfold G
  rw [result_apply _ _ b q j _ rfl]
  unfold entry
  refine congrArg (fun z => cnot z j) (funext fun l => ?_)
  rw [h0 (ix2 r (flat 784 n784 q l)) (ix2 b (flat 784 n784 q l)) hi0 rfl, patchesFlat_apply, tiledRow_apply,
    tiledRow_apply, tiledRow_apply]
  show zq (Ideal.cos (angles1 x1 (ix1 l))) (Ideal.sin (angles1 x1 (ix1 l))) (Ideal.sin (angles0 x1 (ix1 l))) _ = _
  rw [angles1_apply, angles0_apply]

/-! ## The windows' blocks at a point -/

theorem hz : (![0, 0] : Fin 2 → Nat) = fun _ => 0 := funext fun a => by fin_cases a <;> rfl

/-- The printed index maps over the grid: the patch window and the result window are at block row `t`, the three
    rows' windows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (m : (ℓ : Loc nD τ sig) → Buf (Elt Ideal) ℓ) (ρ : Dev nD → PrngReg)

/-- Point `t`'s block of the patch window: rows `1024 t …` of the flat patch array. -/
theorem blk_patches (c : Dev nD) (t : Fin cfg0.N) (y : S1024x784.Idx) (i : S65536x784.Idx)
    (hi0 : (i 0).val = t.val * 1024 + (y 0).val) (hi1 : (i 1).val = (y 1).val) :
    iblk m c 0 t y = patchesFlat (m ((c : Thread nD τ).loc main_arg0)) i := by
  rw [← V_patches m c]
  show V m c main_v2 (((cfg0.win 0).blk t).view.emb y) = V m c main_v2 i
  refine congrArg _ ?_
  obtain ⟨e00, e01, -⟩ := idx_facts t
  funext a; apply Fin.ext
  match a with
  | ⟨0, _⟩ => show win0_0.index t (0 : Fin 2) * 1024 + 1 * (y 0).val = (i 0).val; rw [e00, hi0]; omega
  | ⟨1, _⟩ => show win0_0.index t (1 : Fin 2) * 784 + 1 * (y 1).val = (i 1).val; rw [e01, hi1]; omega

/-- Point `t`'s block of the `cos b` window is the whole row. -/
theorem blk_cosb (c : Dev nD) (t : Fin cfg0.N) :
    (iblk m c 1 t : FVec Ideal S1x784 .f32) = tiledRow (Host.cos (F := Ideal) (angles1 (m ((c : Thread nD τ).loc main_arg1)))) := by
  rw [← V_cosb m c]
  funext y
  show V m c main_v13 (((cfg0.win 1).blk t).view.emb y) = V m c main_v13 y
  refine congrArg _ ?_
  obtain ⟨-, -, e10, e11, -⟩ := idx_facts t
  funext a; apply Fin.ext
  match a with
  | ⟨0, _⟩ => show win0_1.index t (0 : Fin 2) * 1 + 1 * (y 0).val = (y 0).val; rw [e10]; omega
  | ⟨1, _⟩ => show win0_1.index t (1 : Fin 2) * 784 + 1 * (y 1).val = (y 1).val; rw [e11]; omega

/-- Point `t`'s block of the `sin b` window is the whole row. -/
theorem blk_sinb (c : Dev nD) (t : Fin cfg0.N) :
    (iblk m c 2 t : FVec Ideal S1x784 .f32) = tiledRow (Host.sin (F := Ideal) (angles1 (m ((c : Thread nD τ).loc main_arg1)))) := by
  rw [← V_sinb m c]
  funext y
  show V m c main_v17 (((cfg0.win 2).blk t).view.emb y) = V m c main_v17 y
  refine congrArg _ ?_
  obtain ⟨-, -, -, -, e20, e21, -⟩ := idx_facts t
  funext a; apply Fin.ext
  match a with
  | ⟨0, _⟩ => show win0_2.index t (0 : Fin 2) * 1 + 1 * (y 0).val = (y 0).val; rw [e20]; omega
  | ⟨1, _⟩ => show win0_2.index t (1 : Fin 2) * 784 + 1 * (y 1).val = (y 1).val; rw [e21]; omega

/-- Point `t`'s block of the `sin a` window is the whole row. -/
theorem blk_sina (c : Dev nD) (t : Fin cfg0.N) :
    (iblk m c 3 t : FVec Ideal S1x784 .f32) = tiledRow (Host.sin (F := Ideal) (angles0 (m ((c : Thread nD τ).loc main_arg1)))) := by
  rw [← V_sina m c]
  funext y
  show V m c main_v21 (((cfg0.win 3).blk t).view.emb y) = V m c main_v21 y
  refine congrArg _ ?_
  obtain ⟨-, -, -, -, -, -, e30, e31, -⟩ := idx_facts t
  funext a; apply Fin.ext
  match a with
  | ⟨0, _⟩ => show win0_3.index t (0 : Fin 2) * 1 + 1 * (y 0).val = (y 0).val; rw [e30]; omega
  | ⟨1, _⟩ => show win0_3.index t (1 : Fin 2) * 784 + 1 * (y 1).val = (y 1).val; rw [e31]; omega

/-! ## From the blocks to the array -/

/-- WHAT POINT `t` WRITES BACK is block `t` of the closed form of the arguments. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1))) := by
  rw [Value.flushed4]
  unfold out0_4
  rw [View.canon_unit_zero hz]
  simp only [View.ld_unit_zero (S := S1024x784) hz, View.ld_unit_zero (S := S1x784) hz]
  obtain ⟨-, -, -, -, -, -, -, -, e40, e41⟩ := idx_facts t
  funext y
  show k0_pay1 (F := Ideal) (iblk m c 0 t) (iblk m c 1 t) (iblk m c 2 t) (iblk m c 3 t) y
    = G (m ((c : Thread nD τ).loc main_arg0)) (m ((c : Thread nD τ).loc main_arg1)) (((cfg0.win 4).blk t).view.emb y)
  exact point_eq (m ((c : Thread nD τ).loc main_arg0)) (m ((c : Thread nD τ).loc main_arg1))
    (iblk m c 0 t) (iblk m c 1 t) (iblk m c 2 t) (iblk m c 3 t) t.val
    (blk_patches m c t) (blk_cosb m c t) (blk_sinb m c t) (blk_sina m c t) y (((cfg0.win 4).blk t).view.emb y)
    (by show win0_4.index t (0 : Fin 2) * 1024 + 1 * (y 0).val = t.val * 1024 + (y 0).val; rw [e40]; omega)
    (by show win0_4.index t (1 : Fin 2) * 784 + 1 * (y 1).val = (y 1).val; rw [e41]; omega)

/-- An index of the array is in point `t`'s block iff each coordinate is in the block's range on its axis. -/
theorem mem_blk (t : Fin cfg0.N) (i : S65536x784.Idx) :
    i ∈ ((cfg0.win 4).blk t).view.set ↔ ∀ a : Fin 2, win0_4.index t a * S1024x784.size a ≤ (i a).val
      ∧ (i a).val < win0_4.index t a * S1024x784.size a + S1024x784.size a := by
  show i ∈ ((View.whole main_v22).slice (win0_4.rect t)).set ↔ _
  rw [View.set_slice_whole, Rect.mem_set_unit]
  exact Iff.rfl

/-- Every row of the result is in some point's block: row `b` in point `b / 1024`'s. -/
theorem cover (i : S65536x784.Idx) :
    ∃ t : Fin cfg0.N, (cfg0.win 4).flush t = true ∧ i ∈ ((cfg0.win 4).blk t).view.set := by
  have hi0 : (i 0).val < 65536 := (i 0).isLt
  have hi1 : (i 1).val < 784 := (i 1).isLt
  have ht : (i 0).val / 1024 < cfg0.N := by show _ < grid0.N; rw [N_0]; omega
  refine ⟨⟨(i 0).val / 1024, ht⟩, flush0_4 _, ?_⟩
  rw [mem_blk]
  obtain ⟨-, -, -, -, -, -, -, -, e40, e41⟩ := idx_facts ⟨(i 0).val / 1024, ht⟩
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e40]; show (i 0).val / 1024 * 1024 ≤ (i 0).val ∧ (i 0).val < (i 0).val / 1024 * 1024 + 1024; omega
  | ⟨1, _⟩ =>
    show win0_4.index ⟨(i 0).val / 1024, ht⟩ (1 : Fin 2) * 784 ≤ (i 1).val
      ∧ (i 1).val < win0_4.index ⟨(i 0).val / 1024, ht⟩ (1 : Fin 2) * 784 + 784
    rw [e41]; omega

/-- THE ARRAY after the run is the closed form of the arguments. -/
theorem final (c : Dev nD) : (dats m 0 c).arrAt 4 cfg0.N
    = G (m ((c : Thread nD τ).loc main_arg0)) (m ((c : Thread nD τ).loc main_arg1)) :=
  (dats m 0 c).arrAt_eq_of_cover 4 (G (m ((c : Thread nD τ).loc main_arg0)) (m ((c : Thread nD τ).loc main_arg1)))
    (fun t _ => flushed_eq m c t) cover

/-- The kernel's run: the result array ends at the closed form of the arguments, the arguments unchanged. -/
theorem run : θ_run defs (onTc (τ := τ) (main (F := Ideal))) ⟨m, fun _ => 0, ρ⟩ fun r => ∀ c : Dev nD,
      r.2.mem ((c : Thread nD τ).loc main_v22) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.lean ====
/-
  The kernel computes the quanvolution filter of 65536 images block by block, 64 blocks of 1024 images; the
  reference computes it with array operations over all images at once. Both cut every 28 × 28 image into 196 patches
  of 2 × 2 pixels (the same regrouping and swap of axes; the kernel flattens a patch's pixels into a row of 784, the
  reference keeps a `[196, 4]` layout) and both evaluate, per patch,

      z l = cos (b l) · cos (p l) + (sin (b l) · sin (p l)) · sin (a l),      out = (z 0, z 0 · z 1, z 2, z 2 · z 3),

  with the same grouping of the products and the sum. The kernel takes the cosine and sines of the pixels inside the
  call and those of the angles on the host; over the extended reals the two are one function, so no algebraic law is
  needed: the two results are the same expression, `Quanv.result` (Proof/Spec.lean), element by element.

  • Proof/RefValue.lean: the reference's result stage is `Quanv.result` of the angles and of its own patch array.
  • Proof/Payload.lean: the block the kernel body stores, read at one element.
  • Proof/HostPrefix.lean: the arrays the call's windows read, as the host operations before it leave them.
  • Proof/KernelValue.lean: what each grid point writes back is its block of `Quanv.result`; the blocks tile the array.
  • Proof/LibLastAxisGroups.lean: layout operations between `[a, b·c]` and `[a, b, c]`, read at an index.

  The three frames are the generated ones (the reference's from its generated run); nothing was rewritten by the
  idealization, so `preserves` is `True`.
-/
import proofs.«137808_j65481071404034_1_alg».proof.Defs
import proofs.«137808_j65481071404034_1_alg».proof.Proof.Gen.Kernel
import proofs.«137808_j65481071404034_1_alg».proof.Proof.Gen.Kernel.Skeleton
import proofs.«137808_j65481071404034_1_alg».proof.Proof.Gen.Kernel.Launch
import proofs.«137808_j65481071404034_1_alg».proof.Proof.Gen.Kernel.Points
import proofs.«137808_j65481071404034_1_alg».proof.Proof.Gen.Kernel.Frame
import proofs.«137808_j65481071404034_1_alg».proof.Proof.Gen.KernelIdeal
import proofs.«137808_j65481071404034_1_alg».proof.Proof.Gen.KernelIdeal.Skeleton
import proofs.«137808_j65481071404034_1_alg».proof.Proof.Gen.KernelIdeal.Launch
import proofs.«137808_j65481071404034_1_alg».proof.Proof.Gen.KernelIdeal.Points
import proofs.«137808_j65481071404034_1_alg».proof.Proof.Gen.KernelIdeal.Frame
import proofs.«137808_j65481071404034_1_alg».proof.Proof.Gen.ReferenceIdeal
import proofs.«137808_j65481071404034_1_alg».proof.Proof.Gen.Pre_finite_inputs
import proofs.«137808_j65481071404034_1_alg».proof.Proof.Gen.KernelIdeal.Value
import proofs.«137808_j65481071404034_1_alg».proof.Proof.Gen.ReferenceIdeal.Run
import proofs.«137808_j65481071404034_1_alg».proof.Proof.Gen.ReferenceIdeal.Read
import proofs.«137808_j65481071404034_1_alg».proof.Proof.RefValue
import proofs.«137808_j65481071404034_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no call: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Quanv.result` of the angles and of the patch array cut from the
    images: the kernel's run says so for its arguments, the reference's for its own, and the arguments agree. -/
theorem algebraic : Cert.algebraic_KernelIdeal_ReferenceIdeal := by
  intro m ρ m' ρ' _ hagree
  refine ⟨fun c => Cert.KernelIdeal.KernelValue.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v37_eq, Cert.ReferenceIdeal.RefValue.result_eq, (hagree c).1,
    (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
